-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S256x256 : Shape := ⟨2, ![256, 256]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x128x128x256 .f32) (main_arg1 : FVec F S256x256 .f32) (main_arg2 : FVec F S256x256 .f32) (main_arg3 : FVec F S256x256 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x128x128x256 : Shape := ⟨4, ![8, 128, 128, 256]⟩
abbrev S256x256 : Shape := ⟨2, ![256, 256]⟩
abbrev S1x16x128x256 : Shape := ⟨4, ![1, 16, 128, 256]⟩
abbrev S16x128x256 : Shape := ⟨3, ![16, 128, 256]⟩
abbrev S2048x256 : Shape := ⟨2, ![2048, 256]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x128x128x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S8x128x128x256, .f32⟩
  | .local _ .vmem, ⟨0, _⟩ => ⟨S1x16x128x256, .f32⟩
  | .local _ .vmem, ⟨1, _⟩ => ⟨S1x16x128x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x16x128x256, .f32⟩
  | .local _ .vmem, ⟨7, _⟩ => ⟨S1x16x128x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x256_S256x256_1_0 : S256x256.Transposes [1, 0] S256x256
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S1x16x128x256_S16x128x256 : S1x16x128x256.ShapeCasts S16x128x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S16x128x256_S2048x256 : S16x128x256.ShapeCasts S2048x256
  shapeCasts_S2048x256_S16x128x256 : S2048x256.ShapeCasts S16x128x256
  reduces_S16x128x128_S16x128 : S16x128x128.Reduces [2] S16x128
  shapeCasts_S16x128_S16x128x1 : S16x128.ShapeCasts S16x128x1
  broadcasts_S16x128x1_S16x128x128 : S16x128x1.Broadcasts S16x128x128
  shapeCasts_S16x128x256_S1x16x128x256 : S16x128x256.ShapeCasts S1x16x128x256
  dot_S2048x256_S256x256_S2048x256_1_0_0_1_n_n_wf : DotDims.WF S2048x256 S256x256 S2048x256 [1] [0] [0] [1] [] []
  dot_S16x128x256_S16x128x256_S16x128x128_2_2_1_1_0_0_wf : DotDims.WF S16x128x256 S16x128x256 S16x128x128 [2] [2] [1] [1] [0] [0]
  dot_S16x128x128_S16x128x256_S16x128x256_2_1_1_2_0_0_wf : DotDims.WF S16x128x128 S16x128x256 S16x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x256.size a ≤ S8x128x128x256.size a
  hwx0_0 : ∀ i : grid0.Coords, EltTy.bits .f32 = 32 ∨ (Rect.block (s := S8x128x128x256) S1x16x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128x256.size a ≤ S8x128x128x256.size a
  hwx0_5 : ∀ i : grid0.Coords, EltTy.bits .f32 = 32 ∨ (Rect.block (s := S8x128x128x256) S1x16x128x256.size (cc0_transform_5 i) (hinb0_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S16x128x256_S16x128x256_S16x128x128_2_2_1_1_0_0 : DotDims S16x128x256 S16x128x256 S16x128x128 where
  lhsContracting := [2]
  rhsContracting := [2]
  lhsNonContracting := [1]
  rhsNonContracting := [1]
  lhsBatch := [0]
  rhsBatch := [0]
  wf := dot_S16x128x256_S16x128x256_S16x128x128_2_2_1_1_0_0_wf
def dot_S16x128x128_S16x128x256_S16x128x256_2_1_1_2_0_0 : DotDims S16x128x128 S16x128x256 S16x128x256 where
  lhsContracting := [2]
  rhsContracting := [1]
  lhsNonContracting := [1]
  rhsNonContracting := [2]
  lhsBatch := [0]
  rhsBatch := [0]
  wf := dot_S16x128x128_S16x128x256_S16x128x256_2_1_1_2_0_0_wf

abbrev win0_0 : Pipeline.Window sig grid0 :=
  Pipeline.Window.ofSpec (Memref.whole main_arg0) S1x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S256x256 : Shape := ⟨2, ![256, 256]⟩
abbrev S8x128x128x128 : Shape := ⟨4, ![8, 128, 128, 128]⟩
abbrev S_ : Shape := ⟨0, ![]⟩
abbrev S8x128x128 : Shape := ⟨3, ![8, 128, 128]⟩
abbrev S8x128x128x1 : Shape := ⟨4, ![8, 128, 128, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128x128x256, .f32⟩
  | .hbm, ⟨5, _⟩ => ⟨S8x128x128x256, .f32⟩
  | .hbm, ⟨6, _⟩ => ⟨S8x128x128x256, .f32⟩
  | .hbm, ⟨7, _⟩ => ⟨S8x128x128x128, .f32⟩
  | .hbm, ⟨8, _⟩ => ⟨S_, .f32⟩
  | .hbm, ⟨9, _⟩ => ⟨S8x128x128, .f32⟩
  | .hbm, ⟨10, _⟩ => ⟨S_, .f32⟩
  | .hbm, ⟨11, _⟩ => ⟨S8x128x128, .f32⟩
  | .hbm, ⟨12, _⟩ => ⟨S8x128x128, .f32⟩
  | .hbm, ⟨13, _⟩ => ⟨S8x128x128x1, .f32⟩
  | .hbm, ⟨14, _⟩ => ⟨S8x128x128x128, .f32⟩
  | .hbm, ⟨15, _⟩ => ⟨S8x128x128x128, .f32⟩
  | .hbm, ⟨16, _⟩ => ⟨S8x128x128x128, .f32⟩
  | .hbm, ⟨17, _⟩ => ⟨S_, .f32⟩
  | .hbm, ⟨18, _⟩ => ⟨S8x128x128, .f32⟩
  | .hbm, ⟨19, _⟩ => ⟨S8x128x128x1, .f32⟩
  | .hbm, ⟨20, _⟩ => ⟨S8x128x128x128, .f32⟩
  | .hbm, ⟨21, _⟩ => ⟨S8x128x128x128, .f32⟩
  | .hbm, ⟨22, _⟩ => ⟨S8x128x128x256, .f32⟩
  | .hbm, ⟨23, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8x128x128x128_S8x128x128_d3 : S8x128x128x128.ReducesTo [3] S8x128x128
  h_S_ : 0 < S_.numel
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  bcast_S8x128x128x1_S8x128x128x128_0_1_2_3 : S8x128x128x1.BroadcastsInDim S8x128x128x128 (![0, 1, 2, 3] : Fin 4 → Fin S8x128x128x128.rank)
  dot_S8x128x128x256_S256x256_S8x128x128x256_3_0_012_1_n_n_wf : DotDims.WF S8x128x128x256 S256x256 S8x128x128x256 [3] [0] [0, 1, 2] [1] [] []
  dot_S8x128x128x256_S8x128x128x256_S8x128x128x128_3_3_2_2_01_01_wf : DotDims.WF S8x128x128x256 S8x128x128x256 S8x128x128x128 [3] [3] [2] [2] [0, 1] [0, 1]
  dot_S8x128x128x128_S8x128x128x256_S8x128x128x256_3_2_2_3_01_01_wf : DotDims.WF S8x128x128x128 S8x128x128x256 S8x128x128x256 [3] [2] [2] [3] [0, 1] [0, 1]
  dot_S8x128x128x256_S256x256_S8x128x128x256_3_1_012_0_n_n_wf : DotDims.WF S8x128x128x256 S256x256 S8x128x128x256 [3] [1] [0, 1, 2] [0] [] []

variable [Facts₀]

def dot_S8x128x128x256_S256x256_S8x128x128x256_3_0_012_1_n_n : DotDims S8x128x128x256 S256x256 S8x128x128x256 where
  lhsContracting := [3]
  rhsContracting := [0]
  lhsNonContracting := [0, 1, 2]
  rhsNonContracting := [1]
  lhsBatch := []
  rhsBatch := []
  wf := dot_S8x128x128x256_S256x256_S8x128x128x256_3_0_012_1_n_n_wf
def dot_S8x128x128x256_S8x128x128x256_S8x128x128x128_3_3_2_2_01_01 : DotDims S8x128x128x256 S8x128x128x256 S8x128x128x128 where
  lhsContracting := [3]
  rhsContracting := [3]
  lhsNonContracting := [2]
  rhsNonContracting := [2]
  lhsBatch := [0, 1]
  rhsBatch := [0, 1]
  wf := dot_S8x128x128x256_S8x128x128x256_S8x128x128x128_3_3_2_2_01_01_wf
def dot_S8x128x128x128_S8x128x128x256_S8x128x128x256_3_2_2_3_01_01 : DotDims S8x128x128x128 S8x128x128x256 S8x128x128x256 where
  lhsContracting := [3]
  rhsContracting := [2]
  lhsNonContracting := [2]
  rhsNonContracting := [3]
  lhsBatch := [0, 1]
  rhsBatch := [0, 1]
  wf := dot_S8x128x128x128_S8x128x128x256_S8x128x128x256_3_2_2_3_01_01_wf
def dot_S8x128x128x256_S256x256_S8x128x128x256_3_1_012_0_n_n : DotDims S8x128x128x256 S256x256 S8x128x128x256 where
  lhsContracting := [3]
  rhsContracting := [1]
  lhsNonContracting := [0, 1, 2]
  rhsNonContracting := [0]
  lhsBatch := []
  rhsBatch := []
  wf := dot_S8x128x128x256_S256x256_S8x128x128x256_3_1_012_0_n_n_wf

class Facts : Prop extends Facts₀ where

variable [Facts]
-- ==== Proof.AxialRow.lean ====
/-
  One row of axial attention, as a function on the extended reals.

  Fix a batch entry and an image row. Its 128 tokens, each a vector of 256 channels, form a matrix `x`.
  The tokens are projected to queries, keys and values by three 256 × 256 matrices; token `i`'s score
  against token `j` is the inner product of query `i` with key `j`; each row of scores is turned into
  weights by a softmax (subtract the row's maximum, exponentiate, divide by the row's sum); the attended
  vector of token `i` is the weighted sum of the values; and a fourth matrix `wo` maps the attended
  vector back to 256 channels. Everything is a finite sum, a maximum, an exponential or a quotient of
  extended reals, so the function is defined at every input, infinite ones included, and no law that
  needs finiteness is used anywhere: the two programs compared against it compute these very sums, over
  the same index sets, in the same arrangement.
-/
import Idealize.ShloMosaic.PureOps.Ideal
import Idealize.ShloMosaic.Lib.ValueIdx

noncomputable section

namespace Cert.Axial

open Idealize.ShloMosaic Idealize.ShloMosaic.ValueIdx

/-- The value both programs start a row's maximum from: the f32 word of −∞, left as the word. -/
abbrev negInf : EReal := Ideal.ofBits .f32 0xFF800000#32

/-- A projection: token `i`, feature `d` is the sum over channels of the token times the weight. -/
def proj (x : Fin 128 → Fin 256 → EReal) (w : Fin 256 → Fin 256 → EReal) (i : Fin 128) (d : Fin 256) : EReal :=
  ∑ c : Fin 256, x i c * w c d

/-- The score of query `i` against key `j`: their inner product over the 256 features. -/
def score (q k : Fin 128 → Fin 256 → EReal) (i j : Fin 128) : EReal :=
  ∑ d : Fin 256, q i d * k j d

/-- The maximum of row `i` of the scores, taken from −∞ over the 128 keys, and once more against −∞
    (both programs spell the softmax's `max` with that second, idle, comparison). -/
def rowMax (s : Fin 128 → Fin 128 → EReal) (i : Fin 128) : EReal :=
  max negInf (Finset.univ.fold max negInf (s i))

/-- The exponential of a score shifted by its row's maximum. -/
def expShift (s : Fin 128 → Fin 128 → EReal) (i j : Fin 128) : EReal :=
  Ideal.exp (s i j - rowMax s i)

/-- The softmax weight of key `j` for query `i`: the shifted exponential over the row's sum of them. -/
def softmax (s : Fin 128 → Fin 128 → EReal) (i j : Fin 128) : EReal :=
  Ideal.div (expShift s i j) (∑ j' : Fin 128, expShift s i j')

/-- The attended vector of token `i`: the values weighted by the row of weights. -/
def attend (p : Fin 128 → Fin 128 → EReal) (v : Fin 128 → Fin 256 → EReal) (i : Fin 128) (d : Fin 256) : EReal :=
  ∑ j : Fin 128, p i j * v j d

/-- The whole row: project, score, softmax, attend, and map back through `wo`. -/
def attnRow (x : Fin 128 → Fin 256 → EReal) (wq wk wv wo : Fin 256 → Fin 256 → EReal) (i : Fin 128) (c : Fin 256) : EReal :=
  ∑ d : Fin 256, attend (softmax (score (proj x wq) (proj x wk))) (proj x wv) i d * wo d c

/-! ## From arrays to rows -/

/-- The 128 × 256 matrix of tokens at batch entry `b`, image row `h` of a [8, 128, 128, 256] array. -/
def slab (X : (⟨4, ![8, 128, 128, 256]⟩ : Shape).Idx → EReal) (b : Fin 8) (h : Fin 128) : Fin 128 → Fin 256 → EReal :=
  fun w c => X (ix4 b h w c)

/-- A [256, 256] array as a matrix by coordinates. -/
def mat (W : (⟨2, ![256, 256]⟩ : Shape).Idx → EReal) : Fin 256 → Fin 256 → EReal := fun a d => W (ix2 a d)

/-- … and its transpose: the map back to channels uses the value weights transposed. -/
def matT (W : (⟨2, ![256, 256]⟩ : Shape).Idx → EReal) : Fin 256 → Fin 256 → EReal := fun d c => W (ix2 c d)

/-- The whole result: entry (b, h, i, c) is row (b, h)'s attention at token `i`, channel `c`, the value weights
    serving twice, once to project the values and once, transposed, to map back. -/
def attnArray (X : (⟨4, ![8, 128, 128, 256]⟩ : Shape).Idx → EReal) (Wq Wk Wv : (⟨2, ![256, 256]⟩ : Shape).Idx → EReal) :
    (⟨4, ![8, 128, 128, 256]⟩ : Shape).Idx → EReal :=
  fun j => attnRow (slab X (j 0) (j 1)) (mat Wq) (mat Wk) (mat Wv) (matT Wv) (j 2) (j 3)

theorem attnArray_ix4 (X : (⟨4, ![8, 128, 128, 256]⟩ : Shape).Idx → EReal) (Wq Wk Wv : (⟨2, ![256, 256]⟩ : Shape).Idx → EReal)
    (b : Fin 8) (h i : Fin 128) (c : Fin 256) :
    attnArray X Wq Wk Wv (ix4 b h i c) = attnRow (slab X b h) (mat Wq) (mat Wk) (mat Wv) (matT Wv) i c := rfl

end Cert.Axial

end
-- ==== Proof.RefRow.lean ====
/-
  The reference read as rows of axial attention.

  The reference computes on the whole [8, 128, 128, 256] array at once: three contractions over the channel axis,
  a contraction batched over (b, h) for the scores, a maximum and a sum along the last axis with their results
  broadcast back, and two more contractions. Read at an index (b, h, ·, ·) each stage only ever touches the
  entries of row (b, h), and is the corresponding stage of `Cert.Axial.attnRow` on that row's slab.
-/
import proofs.«159512_j25984552141241_1_alg».proof.Proof.Gen.ReferenceIdeal.Read
import proofs.«159512_j25984552141241_1_alg».proof.Proof.AxialRow
import Idealize.ShloMosaic.Lib.ValueIdx
import Idealize.ShloMosaic.PureOps.Ideal.Laws

noncomputable section

namespace Cert.Axial.Ref

open Cert.ReferenceIdeal Cert.ReferenceIdeal.Gen Cert.ReferenceIdeal.Read Idealize.ShloMosaic Idealize.ShloMosaic.ValueIdx Cert.Axial

variable (X : (⟨S8x128x128x256, .f32⟩ : BufTy).Contents (Elt Ideal)) (Wq Wk Wv : (⟨S256x256, .f32⟩ : BufTy).Contents (Elt Ideal))
variable (b : Fin 8) (h : Fin 128)

/-! ## The composed index functions at an index given by coordinates -/

theorem lidx0 (w : Fin 128) (d k : Fin 256) : lidx_main_v0 (ix4 b h w d) k = ix4 b h w k :=
  funext fun a => by match a with | ⟨0, _⟩ => rfl | ⟨1, _⟩ => rfl | ⟨2, _⟩ => rfl | ⟨3, _⟩ => rfl
theorem ridx0 (w : Fin 128) (d k : Fin 256) : ridx_main_v0 (ix4 b h w d) k = ix2 k d :=
  funext fun a => by match a with | ⟨0, _⟩ => rfl | ⟨1, _⟩ => rfl
theorem lidx1 (w : Fin 128) (d k : Fin 256) : lidx_main_v1 (ix4 b h w d) k = ix4 b h w k :=
  funext fun a => by match a with | ⟨0, _⟩ => rfl | ⟨1, _⟩ => rfl | ⟨2, _⟩ => rfl | ⟨3, _⟩ => rfl
theorem ridx1 (w : Fin 128) (d k : Fin 256) : ridx_main_v1 (ix4 b h w d) k = ix2 k d :=
  funext fun a => by match a with | ⟨0, _⟩ => rfl | ⟨1, _⟩ => rfl
theorem lidx2 (w : Fin 128) (d k : Fin 256) : lidx_main_v2 (ix4 b h w d) k = ix4 b h w k :=
  funext fun a => by match a with | ⟨0, _⟩ => rfl | ⟨1, _⟩ => rfl | ⟨2, _⟩ => rfl | ⟨3, _⟩ => rfl
theorem ridx2 (w : Fin 128) (d k : Fin 256) : ridx_main_v2 (ix4 b h w d) k = ix2 k d :=
  funext fun a => by match a with | ⟨0, _⟩ => rfl | ⟨1, _⟩ => rfl
theorem lidx3 (i j : Fin 128) (k : Fin 256) : lidx_main_v3 (ix4 b h i j) k = ix4 b h i k :=
  funext fun a => by match a with | ⟨0, _⟩ => rfl | ⟨1, _⟩ => rfl | ⟨2, _⟩ => rfl | ⟨3, _⟩ => rfl
theorem ridx3 (i j : Fin 128) (k : Fin 256) : ridx_main_v3 (ix4 b h i j) k = ix4 b h j k :=
  funext fun a => by match a with | ⟨0, _⟩ => rfl | ⟨1, _⟩ => rfl | ⟨2, _⟩ => rfl | ⟨3, _⟩ => rfl
theorem idx78 (i j : Fin 128) : idx_main_v7 (idx_main_v8 (ix4 b h i j)) = ix3 b h i :=
  funext fun a => by match a with | ⟨0, _⟩ => rfl | ⟨1, _⟩ => rfl | ⟨2, _⟩ => rfl
theorem idx11 (i k : Fin 128) : idx_main_v11 (ix3 b h i) k = ix4 b h i k :=
  funext fun a => by match a with | ⟨0, _⟩ => rfl | ⟨1, _⟩ => rfl | ⟨2, _⟩ => rfl | ⟨3, _⟩ => rfl
theorem idx1213 (i j : Fin 128) : idx_main_v12 (idx_main_v13 (ix4 b h i j)) = ix3 b h i :=
  funext fun a => by match a with | ⟨0, _⟩ => rfl | ⟨1, _⟩ => rfl | ⟨2, _⟩ => rfl
theorem lidx15 (i : Fin 128) (d : Fin 256) (k : Fin 128) : lidx_main_v15 (ix4 b h i d) k = ix4 b h i k :=
  funext fun a => by match a with | ⟨0, _⟩ => rfl | ⟨1, _⟩ => rfl | ⟨2, _⟩ => rfl | ⟨3, _⟩ => rfl
theorem ridx15 (i : Fin 128) (d : Fin 256) (k : Fin 128) : ridx_main_v15 (ix4 b h i d) k = ix4 b h k d :=
  funext fun a => by match a with | ⟨0, _⟩ => rfl | ⟨1, _⟩ => rfl | ⟨2, _⟩ => rfl | ⟨3, _⟩ => rfl
theorem lidx16 (i : Fin 128) (c k : Fin 256) : lidx_main_v16 (ix4 b h i c) k = ix4 b h i k :=
  funext fun a => by match a with | ⟨0, _⟩ => rfl | ⟨1, _⟩ => rfl | ⟨2, _⟩ => rfl | ⟨3, _⟩ => rfl
theorem ridx16 (i : Fin 128) (c k : Fin 256) : ridx_main_v16 (ix4 b h i c) k = ix2 c k :=
  funext fun a => by match a with | ⟨0, _⟩ => rfl | ⟨1, _⟩ => rfl

/-! ## The stages -/

/-- Row (b, h)'s scores, as the specification writes them. -/
abbrev S : Fin 128 → Fin 128 → EReal := score (proj (slab X b h) (mat Wq)) (proj (slab X b h) (mat Wk))

/-- The queries: the first contraction at (b, h, w, d) is the projection of the row's slab. -/
theorem q_eq (w : Fin 128) (d : Fin 256) :
    val_main_v0 (F := Ideal) X Wq (ix4 b h w d) = proj (slab X b h) (mat Wq) w d := by
  rw [val_main_v0_apply]
  exact Finset.sum_congr rfl fun k _ => by rw [lidx0, ridx0]; rfl

theorem k_eq (w : Fin 128) (d : Fin 256) :
    val_main_v1 (F := Ideal) X Wk (ix4 b h w d) = proj (slab X b h) (mat Wk) w d := by
  rw [val_main_v1_apply]
  exact Finset.sum_congr rfl fun k _ => by rw [lidx1, ridx1]; rfl

theorem v_eq (w : Fin 128) (d : Fin 256) :
    val_main_v2 (F := Ideal) X Wv (ix4 b h w d) = proj (slab X b h) (mat Wv) w d := by
  rw [val_main_v2_apply]
  exact Finset.sum_congr rfl fun k _ => by rw [lidx2, ridx2]; rfl

/-- The scores: the batched contraction at (b, h, i, j) pairs query `i` with key `j` of the same row. -/
theorem s_eq (i j : Fin 128) : val_main_v3 (F := Ideal) X Wq Wk (ix4 b h i j) = S X Wq Wk b h i j := by
  rw [val_main_v3_apply]
  exact Finset.sum_congr rfl fun k _ => by rw [lidx3, ridx3, q_eq, k_eq]

/-- The last axis of a [8, 128, 128, 128] array can be reduced away. -/
theorem reduces_last : S8x128x128x128.Reduces [3] S8x128x128 := by decide

/-- The index (b, h, i) with `j` put back on the reduced axis is (b, h, i, j). -/
theorem lift_last (i j : Fin 128) : reduces_last.lift (ix3 b h i) j = ix4 b h i j :=
  funext fun a => Fin.ext (by match a with | ⟨0, _⟩ => rfl | ⟨1, _⟩ => rfl | ⟨2, _⟩ => rfl | ⟨3, _⟩ => rfl)

/-- The reduction by `maximum` along the last axis, at (b, h, i): the fold of `max` from −∞ over row `i` of the scores. -/
theorem m4_eq (i : Fin 128) :
    val_main_v4 (F := Ideal) X Wq Wk (ix3 b h i) = Finset.univ.fold max negInf (S X Wq Wk b h i) := by
  unfold val_main_v4
  refine (Host.reduce_eq_fold_single FloatOps.maximumf _ _ reducesTo_S8x128x128x128_S8x128x128_d3
    reduces_last h_S_ (ix3 b h i)).trans ?_
  have e : (val_main_v3 (F := Ideal) X Wq Wk ∘ reduces_last.lift (ix3 b h i)) = S X Wq Wk b h i :=
    funext fun (j : Fin 128) =>
      (congrArg (val_main_v3 (F := Ideal) X Wq Wk) (lift_last b h i j)).trans (s_eq X Wq Wk b h i j)
  exact congrArg (fun f => Finset.univ.fold max negInf f) e

/-- … and after the idle comparison with −∞ and the two broadcasts, at (b, h, i, j): the row's maximum. -/
theorem m8_eq (i j : Fin 128) : val_main_v8 (F := Ideal) X Wq Wk (ix4 b h i j) = rowMax (S X Wq Wk b h) i := by
  rw [val_main_v8_apply, val_main_v7_apply, val_main_v6_apply, val_main_v5_apply, val_main_cst_0_apply, idx78, m4_eq]
  rfl

/-- The shifted exponentials. -/
theorem e_eq (i j : Fin 128) : val_main_v10 (F := Ideal) X Wq Wk (ix4 b h i j) = expShift (S X Wq Wk b h) i j := by
  rw [val_main_v10_apply, val_main_v9_apply, s_eq, m8_eq]
  rfl

/-- The row sums, broadcast back: the reduction starts from the zero word, which adds nothing. -/
theorem z_eq (i j : Fin 128) :
    val_main_v13 (F := Ideal) X Wq Wk (ix4 b h i j) = ∑ j' : Fin 128, expShift (S X Wq Wk b h) i j' := by
  rw [val_main_v13_apply, val_main_v12_apply, idx1213, val_main_v11_apply, val_main_cst_1_apply, Ideal.ofBits_def,
    Ideal.ofBits_zero_f32, zero_add]
  exact Finset.sum_congr rfl fun k _ => by rw [idx11, e_eq]

/-- The softmax weights. -/
theorem p_eq (i j : Fin 128) : val_main_v14 (F := Ideal) X Wq Wk (ix4 b h i j) = softmax (S X Wq Wk b h) i j := by
  rw [val_main_v14_apply, e_eq, z_eq]
  rfl

/-- The attended vectors: the second batched contraction sums over the keys of the same row. -/
theorem a_eq (i : Fin 128) (d : Fin 256) :
    val_main_v15 (F := Ideal) X Wq Wk Wv (ix4 b h i d)
      = attend (softmax (S X Wq Wk b h)) (proj (slab X b h) (mat Wv)) i d := by
  rw [val_main_v15_apply]
  exact Finset.sum_congr rfl fun k _ => by rw [lidx15, ridx15, p_eq, v_eq]

/-- The reference's result at (b, h, i, c) is row (b, h)'s attention: its last contraction runs over the second
    axis of the value weights, which is the product with their transpose. -/
theorem result_eq (i : Fin 128) (c : Fin 256) :
    val_main_v16 (F := Ideal) X Wq Wk Wv (ix4 b h i c) = attnArray X Wq Wk Wv (ix4 b h i c) := by
  rw [val_main_v16_apply, attnArray_ix4]
  exact Finset.sum_congr rfl fun k _ => by rw [lidx16, ridx16, a_eq]; rfl

/-- So the reference's result IS the whole-array function. -/
theorem result (X : (⟨S8x128x128x256, .f32⟩ : BufTy).Contents (Elt Ideal)) (Wq Wk Wv : (⟨S256x256, .f32⟩ : BufTy).Contents (Elt Ideal)) :
    val_main_v16 (F := Ideal) X Wq Wk Wv = attnArray X Wq Wk Wv := by
  funext j
  rw [eq_ix4 j]
  exact result_eq X Wq Wk Wv _ _ _ _

end Cert.Axial.Ref

end
-- ==== Proof.TileLayout.lean ====
/-
  Re-layings of a tile of sixteen image rows, read at an index.

  The kernel treats the sixteen rows of a block, 128 tokens each, in two ways: as a [16, 128, ·] stack when the rows
  must stay apart (scores, softmax, attention), and as one [2048, ·] matrix when they need not (the projections).
  Token `w` of row `r` is row `r · 128 + w` of the matrix, and the shape casts between the two forms move nothing.
  A per-token scalar (a row maximum, a row sum) is kept as a [16, 128, 1] column and repeated along the keys.
-/
import Idealize.ShloMosaic.Lib.Pipeline.Value
import Idealize.ShloMosaic.Lib.ValueIdx

namespace Cert.Axial.Layout

open Idealize.ShloMosaic Idealize.ShloMosaic.ValueIdx

variable {α : Type}

/-- Token `w` of row `r` of the tile, in the flattened numbering. -/
def flat (r : Fin 16) (w : Fin 128) : Fin 2048 :=
  ⟨r.val * 128 + w.val, by have := r.isLt; have := w.isLt; omega⟩

/-- The stack cast to a matrix reads, at (flattened token, k), the stack at (r, w, k). -/
theorem merge_apply (v : (⟨3, ![16, 128, 256]⟩ : Shape).Idx → α)
    (h : (⟨3, ![16, 128, 256]⟩ : Shape).ShapeCasts ⟨2, ![2048, 256]⟩) (r : Fin 16) (w : Fin 128) (k : Fin 256) :
    shapeCast ⟨2, ![2048, 256]⟩ v h (ix2 (flat r w) k) = v (ix3 r w k) :=
  shapeCast_apply v h _ _ (by
    rw [Shape.rowMajor_val_three, Shape.rowMajor_val_two]
    rfl)

/-- The matrix cast back to a stack reads, at (r, w, k), the matrix at (flattened token, k). -/
theorem split_apply (y : (⟨2, ![2048, 256]⟩ : Shape).Idx → α)
    (h : (⟨2, ![2048, 256]⟩ : Shape).ShapeCasts ⟨3, ![16, 128, 256]⟩) (r : Fin 16) (w : Fin 128) (k : Fin 256) :
    shapeCast ⟨3, ![16, 128, 256]⟩ y h (ix3 r w k) = y (ix2 (flat r w) k) :=
  shapeCast_apply y h _ _ (by
    rw [Shape.rowMajor_val_three, Shape.rowMajor_val_two]
    rfl)

/-- A per-token scalar kept as a column and repeated along the 128 keys reads, at (r, i, j), the scalar of token (r, i). -/
theorem keep_apply (v : (⟨2, ![16, 128]⟩ : Shape).Idx → α)
    (h1 : (⟨2, ![16, 128]⟩ : Shape).ShapeCasts ⟨3, ![16, 128, 1]⟩)
    (h2 : (⟨3, ![16, 128, 1]⟩ : Shape).Broadcasts ⟨3, ![16, 128, 128]⟩) (r : Fin 16) (i j : Fin 128) :
    broadcastTo ⟨3, ![16, 128, 128]⟩ (shapeCast ⟨3, ![16, 128, 1]⟩ v h1) h2 (ix3 r i j) = v (ix2 r i) := by
  refine (broadcastTo_apply _ h2 (ix3 r i j) (ix3 r i (0 : Fin 1)) fun ax => ?_).trans ?_
  · match ax with
    | ⟨0, _⟩ => rfl
    | ⟨1, _⟩ => rfl
    | ⟨2, _⟩ => rfl
  · exact shapeCast_apply v h1 _ _ (by
      rw [Shape.rowMajor_val_three, Shape.rowMajor_val_two]
      show r.val * 128 + i.val = (r.val * 128 + i.val) * 1 + 0
      omega)

end Cert.Axial.Layout
-- ==== Proof.TileOps.lean ====
/-
  The tile's contractions and lane reductions, read at an index on the extended reals.

  Into a zero accumulator a matrix product is the plain sum of products over the contracted axis. The kernel has
  three kinds: a [2048, 256] × [256, 256] product (the projections and the map back to channels), and two products
  batched over the sixteen rows of the tile — queries against keys, contracting the 256 features, and weights
  against values, contracting the 128 keys. A reduction along the last axis of a [16, 128, 128] array is, at
  token (r, i), the fold of `max` from −∞, or the sum, over that token's 128 entries.
-/
import proofs.«159512_j25984552141241_1_alg».proof.Proof.Gen.KernelIdeal
import proofs.«159512_j25984552141241_1_alg».proof.Proof.AxialRow
import Idealize.ShloMosaic.Lib.ValueIdx
import Idealize.ShloMosaic.PureOps.Ideal.Laws

noncomputable section

namespace Cert.Axial.Tile

open Cert.KernelIdeal Cert.KernelIdeal.Gen Idealize.ShloMosaic Idealize.ShloMosaic.ValueIdx Cert.Axial

/-! ## The plain product: rows × contraction times contraction × columns -/

abbrev D1 := dot_S2048x256_S256x256_S2048x256_1_0_0_1_n_n

theorem D1_lhs0 (j : S2048x256.Idx) (q : D1.contr.Idx) : (D1.lhsIdx j q 0).val = (j 0).val := by
  unfold DotDims.lhsIdx
  rw [dif_neg (show ¬(0 : Fin S2048x256.rank) ∈ D1.lhsBatch by decide), dif_pos (show (0 : Fin S2048x256.rank) ∈ D1.lhsNonContracting by decide)]
  rfl
theorem D1_lhs1 (j : S2048x256.Idx) (q : D1.contr.Idx) : (D1.lhsIdx j q 1).val = (q ⟨0, by decide⟩).val :=
  D1.lhsIdx_val_of_single rfl j q
theorem D1_rhs0 (j : S2048x256.Idx) (q : D1.contr.Idx) : (D1.rhsIdx j q 0).val = (q ⟨0, by decide⟩).val :=
  D1.rhsIdx_val_of_single rfl j q
theorem D1_rhs1 (j : S2048x256.Idx) (q : D1.contr.Idx) : (D1.rhsIdx j q 1).val = (j 1).val := by
  unfold DotDims.rhsIdx
  rw [dif_neg (show ¬(1 : Fin S256x256.rank) ∈ D1.rhsBatch by decide), dif_pos (show (1 : Fin S256x256.rank) ∈ D1.rhsNonContracting by decide)]
  rfl

/-- Entry (p, d) of the plain product into zero: the sum over `k` of left (p, k) times right (k, d). -/
theorem plain_apply (l : FVec Ideal S2048x256 .bf16) (r : FVec Ideal S256x256 .bf16) (p : Fin 2048) (d : Fin 256) :
    matmul D1 none l r (constant S2048x256 .f32 0x00000000#32) (ix2 p d) = ∑ k : Fin 256, l (ix2 p k) * r (ix2 k d) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p d) ((contrEquiv1 D1 256 rfl rfl).symm k) = ix2 p k := funext fun a => Fin.ext (by
    match a with
    | ⟨0, _⟩ => exact D1_lhs0 _ _
    | ⟨1, _⟩ => exact (D1_lhs1 _ _).trans hk)
  have er : D1.rhsIdx (ix2 p d) ((contrEquiv1 D1 256 rfl rfl).symm k) = ix2 k d := funext fun a => Fin.ext (by
    match a with
    | ⟨0, _⟩ => exact (D1_rhs0 _ _).trans hk
    | ⟨1, _⟩ => exact D1_rhs1 _ _)
  rw [el, er]

/-! ## Queries against keys, row by row of the tile -/

abbrev D2 := dot_S16x128x256_S16x128x256_S16x128x128_2_2_1_1_0_0

theorem D2_lhs0 (j : S16x128x128.Idx) (q : D2.contr.Idx) : (D2.lhsIdx j q 0).val = (j 0).val := by
  unfold DotDims.lhsIdx
  rw [dif_pos (show (0 : Fin S16x128x256.rank) ∈ D2.lhsBatch by decide)]
  rfl
theorem D2_lhs1 (j : S16x128x128.Idx) (q : D2.contr.Idx) : (D2.lhsIdx j q 1).val = (j 1).val := by
  unfold DotDims.lhsIdx
  rw [dif_neg (show ¬(1 : Fin S16x128x256.rank) ∈ D2.lhsBatch by decide), dif_pos (show (1 : Fin S16x128x256.rank) ∈ D2.lhsNonContracting by decide)]
  rfl
theorem D2_lhs2 (j : S16x128x128.Idx) (q : D2.contr.Idx) : (D2.lhsIdx j q 2).val = (q ⟨0, by decide⟩).val :=
  D2.lhsIdx_val_of_single rfl j q
theorem D2_rhs0 (j : S16x128x128.Idx) (q : D2.contr.Idx) : (D2.rhsIdx j q 0).val = (j 0).val := by
  unfold DotDims.rhsIdx
  rw [dif_pos (show (0 : Fin S16x128x256.rank) ∈ D2.rhsBatch by decide)]
  rfl
theorem D2_rhs1 (j : S16x128x128.Idx) (q : D2.contr.Idx) : (D2.rhsIdx j q 1).val = (j 2).val := by
  unfold DotDims.rhsIdx
  rw [dif_neg (show ¬(1 : Fin S16x128x256.rank) ∈ D2.rhsBatch by decide), dif_pos (show (1 : Fin S16x128x256.rank) ∈ D2.rhsNonContracting by decide)]
  rfl
theorem D2_rhs2 (j : S16x128x128.Idx) (q : D2.contr.Idx) : (D2.rhsIdx j q 2).val = (q ⟨0, by decide⟩).val :=
  D2.rhsIdx_val_of_single rfl j q

/-- Entry (r, i, j) of the batched product into zero: query `i` against key `j` of the same row `r`. -/
theorem qk_apply (q k : FVec Ideal S16x128x256 .bf16) (r : Fin 16) (i j : Fin 128) :
    matmul D2 none q k (constant S16x128x128 .f32 0x00000000#32) (ix3 r i j) = ∑ d : Fin 256, q (ix3 r i d) * k (ix3 r j d) := by
  simp only [matmul]
  rw [Ideal.matmul_constant_zero_apply, ← Equiv.sum_comp (contrEquiv1 D2 256 rfl rfl).symm]
  refine Finset.sum_congr rfl fun d _ => ?_
  have hd := contrEquiv1_symm_val D2 256 rfl rfl d
  have el : D2.lhsIdx (ix3 r i j) ((contrEquiv1 D2 256 rfl rfl).symm d) = ix3 r i d := funext fun a => Fin.ext (by
    match a with
    | ⟨0, _⟩ => exact D2_lhs0 _ _
    | ⟨1, _⟩ => exact D2_lhs1 _ _
    | ⟨2, _⟩ => exact (D2_lhs2 _ _).trans hd)
  have er : D2.rhsIdx (ix3 r i j) ((contrEquiv1 D2 256 rfl rfl).symm d) = ix3 r j d := funext fun a => Fin.ext (by
    match a with
    | ⟨0, _⟩ => exact D2_rhs0 _ _
    | ⟨1, _⟩ => exact D2_rhs1 _ _
    | ⟨2, _⟩ => exact (D2_rhs2 _ _).trans hd)
  rw [el, er]

/-! ## Weights against values, row by row of the tile -/

abbrev D3 := dot_S16x128x128_S16x128x256_S16x128x256_2_1_1_2_0_0

theorem D3_lhs0 (j : S16x128x256.Idx) (q : D3.contr.Idx) : (D3.lhsIdx j q 0).val = (j 0).val := by
  unfold DotDims.lhsIdx
  rw [dif_pos (show (0 : Fin S16x128x128.rank) ∈ D3.lhsBatch by decide)]
  rfl
theorem D3_lhs1 (j : S16x128x256.Idx) (q : D3.contr.Idx) : (D3.lhsIdx j q 1).val = (j 1).val := by
  unfold DotDims.lhsIdx
  rw [dif_neg (show ¬(1 : Fin S16x128x128.rank) ∈ D3.lhsBatch by decide), dif_pos (show (1 : Fin S16x128x128.rank) ∈ D3.lhsNonContracting by decide)]
  rfl
theorem D3_lhs2 (j : S16x128x256.Idx) (q : D3.contr.Idx) : (D3.lhsIdx j q 2).val = (q ⟨0, by decide⟩).val :=
  D3.lhsIdx_val_of_single rfl j q
theorem D3_rhs0 (j : S16x128x256.Idx) (q : D3.contr.Idx) : (D3.rhsIdx j q 0).val = (j 0).val := by
  unfold DotDims.rhsIdx
  rw [dif_pos (show (0 : Fin S16x128x256.rank) ∈ D3.rhsBatch by decide)]
  rfl
theorem D3_rhs1 (j : S16x128x256.Idx) (q : D3.contr.Idx) : (D3.rhsIdx j q 1).val = (q ⟨0, by decide⟩).val :=
  D3.rhsIdx_val_of_single rfl j q
theorem D3_rhs2 (j : S16x128x256.Idx) (q : D3.contr.Idx) : (D3.rhsIdx j q 2).val = (j 2).val := by
  unfold DotDims.rhsIdx
  rw [dif_neg (show ¬(2 : Fin S16x128x256.rank) ∈ D3.rhsBatch by decide), dif_pos (show (2 : Fin S16x128x256.rank) ∈ D3.rhsNonContracting by decide)]
  rfl

/-- Entry (r, i, d) of the batched product into zero: the weights of token `i` against the values of row `r`. -/
theorem pv_apply (p : FVec Ideal S16x128x128 .bf16) (v : FVec Ideal S16x128x256 .bf16) (r : Fin 16) (i : Fin 128) (d : Fin 256) :
    matmul D3 none p v (constant S16x128x256 .f32 0x00000000#32) (ix3 r i d) = ∑ j : Fin 128, p (ix3 r i j) * v (ix3 r j d) := by
  simp only [matmul]
  rw [Ideal.matmul_constant_zero_apply, ← Equiv.sum_comp (contrEquiv1 D3 128 rfl rfl).symm]
  refine Finset.sum_congr rfl fun j _ => ?_
  have hj := contrEquiv1_symm_val D3 128 rfl rfl j
  have el : D3.lhsIdx (ix3 r i d) ((contrEquiv1 D3 128 rfl rfl).symm j) = ix3 r i j := funext fun a => Fin.ext (by
    match a with
    | ⟨0, _⟩ => exact D3_lhs0 _ _
    | ⟨1, _⟩ => exact D3_lhs1 _ _
    | ⟨2, _⟩ => exact (D3_lhs2 _ _).trans hj)
  have er : D3.rhsIdx (ix3 r i d) ((contrEquiv1 D3 128 rfl rfl).symm j) = ix3 r j d := funext fun a => Fin.ext (by
    match a with
    | ⟨0, _⟩ => exact D3_rhs0 _ _
    | ⟨1, _⟩ => exact (D3_rhs1 _ _).trans hj
    | ⟨2, _⟩ => exact D3_rhs2 _ _)
  rw [el, er]

/-! ## The reductions along the keys -/

/-- The token (r, i) with key `j` put back on the reduced axis is (r, i, j). -/
theorem lift_keys (h : S16x128x128.Reduces [2] S16x128) (r : Fin 16) (i j : Fin 128) : h.lift (ix2 r i) j = ix3 r i j :=
  funext fun a => Fin.ext (by match a with | ⟨0, _⟩ => rfl | ⟨1, _⟩ => rfl | ⟨2, _⟩ => rfl)

/-- The maximum along the keys, at token (r, i): the fold of `max` from −∞ over that token's scores. -/
theorem keyMax_apply (s : FVec Ideal S16x128x128 .f32) (h : S16x128x128.Reduces [2] S16x128) (hφ : FKind.Formats .f32)
    (hacc : (0xFF800000#32 : BitVec 32) = FKind.maximumf.neutral .f32 hφ) (r : Fin 16) (i : Fin 128) :
    multiReduction .maximumf [2] S16x128 s 0xFF800000#32 h hφ hacc (ix2 r i)
      = Finset.univ.fold max negInf (fun j : Fin 128 => s (ix3 r i j)) := by
  refine (Ideal.multiReduction_maximumf_single s 0xFF800000#32 h hφ hacc (ix2 r i)).trans ?_
  have e : (s ∘ h.lift (ix2 r i)) = fun j : Fin 128 => s (ix3 r i j) :=
    funext fun (j : Fin 128) => congrArg s (lift_keys h r i j)
  exact congrArg (fun f => Finset.univ.fold max negInf f) e

/-- The sum along the keys, at token (r, i). -/
theorem keySum_apply (e : FVec Ideal S16x128x128 .f32) (h : S16x128x128.Reduces [2] S16x128) (hφ : FKind.Formats .f32)
    (hacc : (0x00000000#32 : BitVec 32) = FKind.add.neutral .f32 hφ) (r : Fin 16) (i : Fin 128) :
    multiReduction .add [2] S16x128 e 0x00000000#32 h hφ hacc (ix2 r i) = ∑ j : Fin 128, e (ix3 r i j) := by
  refine (Ideal.multiReduction_add_single e 0x00000000#32 h hφ hacc (ix2 r i)).trans ?_
  exact Finset.sum_congr rfl fun (j : Fin 128) _ => congrArg e (lift_keys h r i j)

end Cert.Axial.Tile

end
-- ==== Proof.TilePayload.lean ====
/-
  What the kernel's body computes, entry by entry.

  The body receives a tile of sixteen image rows and the four weight matrices and writes a tile of the same shape.
  Its one payload is restated here as a composition of stages — project the tile, score queries against keys row
  by row, shift by the row maximum and exponentiate, divide by the row sum, weigh the values, map back to
  channels — which is the printed sequence of operations with names given to its parts. Every rounding to the
  sixteen-bit format is the identity on the extended reals, every shape cast moves nothing, so read at entry
  (·, r, i, c) each stage is the corresponding stage of `Cert.Axial.attnRow` on row `r` of the tile, and rows never mix.
-/
import proofs.«159512_j25984552141241_1_alg».proof.Proof.Gen.KernelIdeal.Skeleton
import proofs.«159512_j25984552141241_1_alg».proof.Proof.TileLayout
import proofs.«159512_j25984552141241_1_alg».proof.Proof.TileOps
import Idealize.ShloMosaic.Lib.ValueLayout

noncomputable section

namespace Cert.Axial.Tile

open Cert.KernelIdeal Cert.KernelIdeal.Gen Idealize.ShloMosaic Idealize.ShloMosaic.ValueIdx Cert.Axial Cert.Axial.Layout

/-! ## The stages, as the body spells them -/

/-- A projection of the tile: flatten the sixteen rows, multiply by the weights, split the rows again. -/
def tProj (x0 : FVec Ideal S1x16x128x256 .f32) (w : FVec Ideal S256x256 .f32) : FVec Ideal S16x128x256 .bf16 :=
  truncf .bf16 (shapeCast S16x128x256
    (matmul D1 none
      (shapeCast S2048x256 (truncf .bf16 (shapeCast S16x128x256 x0 shapeCasts_S1x16x128x256_S16x128x256) bitsLt_bf16_f32)
        shapeCasts_S16x128x256_S2048x256)
      (truncf .bf16 w bitsLt_bf16_f32) (constant (F := Ideal) S2048x256 .f32 0x00000000#32))
    shapeCasts_S2048x256_S16x128x256) bitsLt_bf16_f32

/-- The scores of the tile, row by row. -/
def tScore (q k : FVec Ideal S16x128x256 .bf16) : FVec Ideal S16x128x128 .f32 :=
  matmul D2 none q k (constant (F := Ideal) S16x128x128 .f32 0x00000000#32)

/-- Each token's maximal score, repeated along the keys. -/
def tMax (s : FVec Ideal S16x128x128 .f32) : FVec Ideal S16x128x128 .f32 :=
  broadcastTo S16x128x128
    (shapeCast S16x128x1
      (maximumf (broadcast S16x128 (Scalar.ofBits (F := Ideal) .f32 0xFF800000#32))
        (multiReduction (F := Ideal) .maximumf [2] S16x128 s 0xFF800000#32 reduces_S16x128x128_S16x128 (.inl rfl) rfl))
      shapeCasts_S16x128_S16x128x1)
    broadcasts_S16x128x1_S16x128x128

/-- The shifted exponentials. -/
def tExp (s : FVec Ideal S16x128x128 .f32) : FVec Ideal S16x128x128 .f32 := exp (subf s (tMax s))

/-- Each token's sum over the keys, repeated along the keys. -/
def tSum (e : FVec Ideal S16x128x128 .f32) : FVec Ideal S16x128x128 .f32 :=
  broadcastTo S16x128x128
    (shapeCast S16x128x1
      (multiReduction (F := Ideal) .add [2] S16x128 e 0x00000000#32 reduces_S16x128x128_S16x128 (.inl rfl) rfl)
      shapeCasts_S16x128_S16x128x1)
    broadcasts_S16x128x1_S16x128x128

/-- The softmax weights. -/
def tSoft (s : FVec Ideal S16x128x128 .f32) : FVec Ideal S16x128x128 .bf16 :=
  truncf .bf16 (divf (tExp s) (tSum (tExp s))) bitsLt_bf16_f32

/-- The attended vectors, rows flattened again for the last product. -/
def tAtt (p : FVec Ideal S16x128x128 .bf16) (v : FVec Ideal S16x128x256 .bf16) : FVec Ideal S2048x256 .bf16 :=
  truncf .bf16
    (shapeCast S2048x256 (matmul D3 none p v (constant (F := Ideal) S16x128x256 .f32 0x00000000#32)) shapeCasts_S16x128x256_S2048x256)
    bitsLt_bf16_f32

/-- The map back to channels, and the tile's shape restored. -/
def tOut (a : FVec Ideal S2048x256 .bf16) (wo : FVec Ideal S256x256 .bf16) : FVec Ideal S1x16x128x256 .f32 :=
  shapeCast S1x16x128x256
    (shapeCast S16x128x256 (matmul D1 none a wo (constant (F := Ideal) S2048x256 .f32 0x00000000#32)) shapeCasts_S2048x256_S16x128x256)
    shapeCasts_S16x128x256_S1x16x128x256

/-- The body's payloads are these stages composed: the printed operations, with the parts named. -/
theorem pay3_eq (x0 : Vec Ideal S1x16x128x256 .f32) (x1 x2 x3 : Vec Ideal S256x256 .f32) :
    k0_pay3 (F := Ideal) x0 x1 x2 x3 = tAtt (tSoft (tScore (tProj x0 x1) (tProj x0 x2))) (tProj x0 x3) := rfl

theorem pay1_eq (wo : FVec Ideal S256x256 .bf16) (a : FVec Ideal S2048x256 .bf16) :
    k0_pay1 (F := Ideal) wo a = tOut a wo := rfl

/-- The fourth matrix arrives through a trivial cast and a rounding: unchanged. -/
theorem pay2_apply (x4 : Vec Ideal S256x256 .f32) (d c : Fin 256) : k0_pay2 (F := Ideal) x4 (ix2 d c) = x4 (ix2 d c) :=
  congrFun (shapeCast_self x4 shapeCasts_S256x256_S256x256) (ix2 d c)

/-! ## The stages at an entry -/

/-- Row `r` of the tile as a 128 × 256 matrix of tokens. -/
def trow (x0 : FVec Ideal S1x16x128x256 .f32) (r : Fin 16) : Fin 128 → Fin 256 → EReal :=
  fun w c => x0 (ix4 (0 : Fin 1) r w c)

theorem tProj_apply (x0 : FVec Ideal S1x16x128x256 .f32) (w : FVec Ideal S256x256 .f32) (r : Fin 16) (i : Fin 128) (d : Fin 256) :
    tProj x0 w (ix3 r i d) = proj (trow x0 r) (mat w) i d := by
  unfold tProj
  refine (truncf_apply (ψ := .bf16) _ bitsLt_bf16_f32 _).trans ?_
  refine (split_apply _ _ r i d).trans ?_
  refine (plain_apply _ _ (flat r i) d).trans ?_
  exact Finset.sum_congr rfl fun k _ =>
    congrArg₂ (· * ·) ((merge_apply _ _ r i k).trans (shapeCast_1abc_abc_apply x0 _ r i k)) rfl

theorem tScore_apply (q k : FVec Ideal S16x128x256 .bf16) (r : Fin 16) (i j : Fin 128) :
    tScore q k (ix3 r i j) = ∑ d : Fin 256, q (ix3 r i d) * k (ix3 r j d) :=
  qk_apply q k r i j

theorem tMax_apply (s : FVec Ideal S16x128x128 .f32) (r : Fin 16) (i j : Fin 128) :
    tMax s (ix3 r i j) = rowMax (fun i j => s (ix3 r i j)) i := by
  unfold tMax
  refine (keep_apply _ _ _ r i j).trans ?_
  exact congrArg (max negInf) (keyMax_apply s _ _ _ r i)

theorem tExp_apply (s : FVec Ideal S16x128x128 .f32) (r : Fin 16) (i j : Fin 128) :
    tExp s (ix3 r i j) = expShift (fun i j => s (ix3 r i j)) i j := by
  show Ideal.exp (s (ix3 r i j) - tMax s (ix3 r i j)) = _
  rw [tMax_apply]
  rfl

theorem tSum_apply (e : FVec Ideal S16x128x128 .f32) (r : Fin 16) (i j : Fin 128) :
    tSum e (ix3 r i j) = ∑ j' : Fin 128, e (ix3 r i j') := by
  unfold tSum
  exact (keep_apply _ _ _ r i j).trans (keySum_apply e _ _ _ r i)

theorem tSoft_apply (s : FVec Ideal S16x128x128 .f32) (r : Fin 16) (i j : Fin 128) :
    tSoft s (ix3 r i j) = softmax (fun i j => s (ix3 r i j)) i j := by
  show Ideal.div (tExp s (ix3 r i j)) (tSum (tExp s) (ix3 r i j)) = _
  rw [tSum_apply]
  simp only [tExp_apply]
  rfl

theorem tAtt_apply (p : FVec Ideal S16x128x128 .bf16) (v : FVec Ideal S16x128x256 .bf16) (r : Fin 16) (i : Fin 128) (d : Fin 256) :
    tAtt p v (ix2 (flat r i) d) = ∑ j : Fin 128, p (ix3 r i j) * v (ix3 r j d) := by
  unfold tAtt
  refine (truncf_apply (ψ := .bf16) _ bitsLt_bf16_f32 _).trans ?_
  exact (merge_apply _ _ r i d).trans (pv_apply p v r i d)

theorem tOut_apply (a : FVec Ideal S2048x256 .bf16) (wo : FVec Ideal S256x256 .bf16) (u : Fin 1) (r : Fin 16) (i : Fin 128) (c : Fin 256) :
    tOut a wo (ix4 u r i c) = ∑ d : Fin 256, a (ix2 (flat r i) d) * wo (ix2 d c) := by
  unfold tOut
  refine (shapeCast_abc_1abc_apply _ _ u r i c).trans ?_
  exact (split_apply _ _ r i c).trans (plain_apply a wo (flat r i) c)

/-! ## The payload at an entry -/

/-- The attended vector of token (r, i), before the map back: the attention stage of row `r`. -/
theorem pay3_apply (x0 : Vec Ideal S1x16x128x256 .f32) (x1 x2 x3 : Vec Ideal S256x256 .f32) (r : Fin 16) (i : Fin 128) (d : Fin 256) :
    k0_pay3 (F := Ideal) x0 x1 x2 x3 (ix2 (flat r i) d)
      = attend (softmax (score (proj (trow x0 r) (mat x1)) (proj (trow x0 r) (mat x2)))) (proj (trow x0 r) (mat x3)) i d := by
  rw [pay3_eq, tAtt_apply]
  have hs : (fun i j => tScore (tProj x0 x1) (tProj x0 x2) (ix3 r i j))
      = score (proj (trow x0 r) (mat x1)) (proj (trow x0 r) (mat x2)) :=
    funext fun i => funext fun j => by
      rw [tScore_apply]
      exact Finset.sum_congr rfl fun d _ => by rw [tProj_apply, tProj_apply]
  exact Finset.sum_congr rfl fun j _ => by rw [tSoft_apply, hs, tProj_apply]

/-- What the body stores at entry (·, r, i, c) of the output tile: the attention of row `r` of the input tile. -/
theorem pay_apply (x0 : Vec Ideal S1x16x128x256 .f32) (x1 x2 x3 x4 : Vec Ideal S256x256 .f32)
    (u : Fin 1) (r : Fin 16) (i : Fin 128) (c : Fin 256) :
    k0_pay1 (F := Ideal) (k0_pay2 x4) (k0_pay3 x0 x1 x2 x3) (ix4 u r i c)
      = attnRow (trow x0 r) (mat x1) (mat x2) (mat x3) (mat x4) i c := by
  rw [pay1_eq, tOut_apply]
  exact Finset.sum_congr rfl fun d _ => by rw [pay3_apply, pay2_apply]; rfl

end Cert.Axial.Tile

end
-- ==== Proof.WholeArray.lean ====
/-
  From tiles to the whole array.

  The grid has 8 × 8 points. Point (b, g) is handed rows 16g … 16g + 15 of batch entry b of the input, the three
  weight matrices whole, and the value weights transposed (a transposition made before the kernel starts); it
  writes back rows 16g … 16g + 15 of batch entry b of the result. Since the body's value at a row depends on
  that row of its tile alone, what point (b, g) writes back is its block of ONE function of the argument arrays,
  `Cert.Axial.attnArray`; the 64 blocks tile the result, so the result ends as that function everywhere.
-/
import proofs.«159512_j25984552141241_1_alg».proof.Proof.Gen.KernelIdeal.Value
import proofs.«159512_j25984552141241_1_alg».proof.Proof.TilePayload
import Idealize.ShloMosaic.Lib.Pipeline.Value
import Idealize.ShloMosaic.Lib.ValueLayout
import Idealize.ShloMosaic.Lib.StableHlo.Run

noncomputable section

namespace Cert.Axial.Whole

open Cert.KernelIdeal Cert.KernelIdeal.Gen Idealize.ShloMosaic Idealize.ShloMosaic.TcCoe Idealize.SL.Sem
open Idealize.ShloMosaic.StableHlo Idealize.ShloMosaic.ValueIdx Cert.Axial Cert.Axial.Tile
open Idealize.ShloMosaic.Pipeline (Dat)

/-! ## One tile, against the whole-array function -/

/-- Image row `r` of the `g`-th group of sixteen. -/
def rowOf (g : Fin 8) (r : Fin 16) : Fin 128 := ⟨g.val * 16 + r.val, by have := g.isLt; have := r.isLt; omega⟩

/-- If the tile is rows 16g … 16g + 15 of batch entry `b`, the first three matrices are the weights and the fourth is the
    value weights transposed, then the body's value at entry (·, r, i, c) is the whole-array function at (b, 16g + r, i, c). -/
theorem tile_eq (X : (⟨4, ![8, 128, 128, 256]⟩ : Shape).Idx → EReal) (Wq Wk Wv : (⟨2, ![256, 256]⟩ : Shape).Idx → EReal)
    (x0 : Vec Ideal S1x16x128x256 .f32) (x1 x2 x3 x4 : Vec Ideal S256x256 .f32) (b g : Fin 8)
    (e0 : ∀ (r : Fin 16) (w : Fin 128) (c : Fin 256), x0 (ix4 (0 : Fin 1) r w c) = X (ix4 b (rowOf g r) w c))
    (e1 : ∀ a d : Fin 256, x1 (ix2 a d) = Wq (ix2 a d)) (e2 : ∀ a d : Fin 256, x2 (ix2 a d) = Wk (ix2 a d))
    (e3 : ∀ a d : Fin 256, x3 (ix2 a d) = Wv (ix2 a d)) (e4 : ∀ d c : Fin 256, x4 (ix2 d c) = Wv (ix2 c d))
    (u : Fin 1) (r : Fin 16) (i : Fin 128) (c : Fin 256) :
    k0_pay1 (F := Ideal) (k0_pay2 x4) (k0_pay3 x0 x1 x2 x3) (ix4 u r i c) = attnArray X Wq Wk Wv (ix4 b (rowOf g r) i c) := by
  rw [pay_apply, attnArray_ix4]
  have h0 : trow x0 r = slab X b (rowOf g r) := funext fun w => funext fun c => e0 r w c
  have h1 : mat x1 = mat Wq := funext fun a => funext fun d => e1 a d
  have h2 : mat x2 = mat Wk := funext fun a => funext fun d => e2 a d
  have h3 : mat x3 = mat Wv := funext fun a => funext fun d => e3 a d
  have h4 : mat x4 = matT Wv := funext fun d => funext fun c => e4 d c
  rw [h0, h1, h2, h3, h4]

/-! ## The blocks of the six windows -/

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps, decided over the 64 points: the input's block moves with the output's along the batch
    and row-group axes, both stay at 0 along tokens and channels, and every weight window stays at block (0, 0). -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = 0 ∧ win0_0.index t (3 : Fin 4) = 0
    ∧ win0_5.index t (2 : Fin 4) = 0 ∧ win0_5.index t (3 : Fin 4) = 0
    ∧ win0_5.index t (0 : Fin 4) < 8 ∧ win0_5.index t (1 : Fin 4) < 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch entry, row group) is some point's output block. -/
theorem idx_onto : ∀ (b g : Fin 8), ∃ t : Fin cfg0.N, win0_5.index t = ![b.val, g.val, 0, 0] :=
  (by decide +kernel : ∀ (b g : Fin 8), ∃ t : Fin grid0.N, win0_5.index t = ![b.val, g.val, 0, 0])

/-- The transposition made before the kernel starts: the fifth operand is the value weights transposed. -/
theorem V_wvT (c : Dev nD) :
    (V m c main_v0 : S256x256.Idx → EReal)
      = transpose S256x256 [1, 0] (V m c main_arg3 : S256x256.Idx → EReal) transposes_S256x256_S256x256_1_0 := by
  rw [V_main_arg3]
  dsimp only [V, hostOps0]
  after_results

/-- The input's block at point `t`: rows 16g … 16g + 15 of batch entry b, (b, g) the output's block index. -/
theorem blk0_apply (c : Dev nD) (t : Fin cfg0.N) (b g : Fin 8) (hb : win0_5.index t (0 : Fin 4) = b.val)
    (hg : win0_5.index t (1 : Fin 4) = g.val) (r : Fin 16) (w : Fin 128) (ch : Fin 256) :
    (iblk m c 0 t : Vec Ideal S1x16x128x256 .f32) (ix4 (0 : Fin 1) r w ch)
      = (V m c main_arg0 : S8x128x128x256.Idx → EReal) (ix4 b (rowOf g r) w ch) := by
  obtain ⟨f0, f1, f2, f3, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 16 + 1 * r.val = g.val * 16 + r.val; omega
  | ⟨2, _⟩ => show win0_0.index t (2 : Fin 4) * 128 + 1 * w.val = w.val; omega
  | ⟨3, _⟩ => show win0_0.index t (3 : Fin 4) * 256 + 1 * ch.val = ch.val; omega

/-- Each weight window's block is the whole matrix. -/
theorem blk1_apply (c : Dev nD) (t : Fin cfg0.N) (a d : Fin 256) :
    (iblk m c 1 t : Vec Ideal S256x256 .f32) (ix2 a d) = (V m c main_arg1 : S256x256.Idx → EReal) (ix2 a d) := by
  obtain ⟨-, -, -, -, -, -, -, -, f0, f1, -⟩ := idx_facts t
  unfold iblk
  rw [View.read_apply]
  show V m c main_arg1 _ = V m c main_arg1 _
  refine congrArg (V m c main_arg1) (funext fun x => Fin.ext ?_)
  match x with
  | ⟨0, _⟩ => show win0_1.index t (0 : Fin 2) * 256 + 1 * a.val = a.val; omega
  | ⟨1, _⟩ => show win0_1.index t (1 : Fin 2) * 256 + 1 * d.val = d.val; omega

theorem blk2_apply (c : Dev nD) (t : Fin cfg0.N) (a d : Fin 256) :
    (iblk m c 2 t : Vec Ideal S256x256 .f32) (ix2 a d) = (V m c main_arg2 : S256x256.Idx → EReal) (ix2 a d) := by
  obtain ⟨-, -, -, -, -, -, -, -, -, -, f0, f1, -⟩ := idx_facts t
  unfold iblk
  rw [View.read_apply]
  show V m c main_arg2 _ = V m c main_arg2 _
  refine congrArg (V m c main_arg2) (funext fun x => Fin.ext ?_)
  match x with
  | ⟨0, _⟩ => show win0_2.index t (0 : Fin 2) * 256 + 1 * a.val = a.val; omega
  | ⟨1, _⟩ => show win0_2.index t (1 : Fin 2) * 256 + 1 * d.val = d.val; omega

theorem blk3_apply (c : Dev nD) (t : Fin cfg0.N) (a d : Fin 256) :
    (iblk m c 3 t : Vec Ideal S256x256 .f32) (ix2 a d) = (V m c main_arg3 : S256x256.Idx → EReal) (ix2 a d) := by
  obtain ⟨-, -, -, -, -, -, -, -, -, -, -, -, f0, f1, -⟩ := idx_facts t
  unfold iblk
  rw [View.read_apply]
  show V m c main_arg3 _ = V m c main_arg3 _
  refine congrArg (V m c main_arg3) (funext fun x => Fin.ext ?_)
  match x with
  | ⟨0, _⟩ => show win0_3.index t (0 : Fin 2) * 256 + 1 * a.val = a.val; omega
  | ⟨1, _⟩ => show win0_3.index t (1 : Fin 2) * 256 + 1 * d.val = d.val; omega

/-- The fifth window's block is the transposed value weights: entry (d, c) is the value weights at (c, d). -/
theorem blk4_apply (c : Dev nD) (t : Fin cfg0.N) (d ch : Fin 256) :
    (iblk m c 4 t : Vec Ideal S256x256 .f32) (ix2 d ch) = (V m c main_arg3 : S256x256.Idx → EReal) (ix2 ch d) := by
  obtain ⟨-, -, -, -, -, -, -, -, -, -, -, -, -, -, f0, f1⟩ := idx_facts t
  refine Eq.trans ?_ ((congrFun (V_wvT m c) (ix2 d ch)).trans (transpose_ix2_apply _ _ d ch))
  unfold iblk
  rw [View.read_apply]
  show V m c main_v0 _ = V m c main_v0 _
  refine congrArg (V m c main_v0) (funext fun x => Fin.ext ?_)
  match x with
  | ⟨0, _⟩ => show win0_4.index t (0 : Fin 2) * 256 + 1 * d.val = d.val; omega
  | ⟨1, _⟩ => show win0_4.index t (1 : Fin 2) * 256 + 1 * ch.val = ch.val; omega

/-! ## What a point writes back, the cover, and the run -/

/-- The whole-array function of the arrays as the kernel finds them. -/
abbrev GV (c : Dev nD) : S8x128x128x256.Idx → EReal :=
  attnArray (V m c main_arg0) (V m c main_arg1) (V m c main_arg2) (V m c main_arg3)

/-- Point `t` writes back its block of the whole-array function. -/
theorem flushed_eq (c : Dev nD) (t : Fin cfg0.N) :
    (dats m 0 c).flushed 5 t = ((cfg0.win 5).blk t).view.read (Elt Ideal) (GV m c) := by
  rw [Cert.KernelIdeal.Value.flushed5]
  unfold out0_5
  rw [View.canon_unit_zero hz4]
  simp only [View.ld_unit_zero (S := S1x16x128x256) hz4, View.ld_unit_zero (S := S256x256) hz2]
  obtain ⟨-, -, -, -, f2, f3, l0, l1, -⟩ := idx_facts t
  funext y
  obtain ⟨u, r, i, ch, rfl⟩ : ∃ (u : Fin 1) (r : Fin 16) (i : Fin 128) (ch : Fin 256), y = ix4 u r i ch :=
    ⟨y 0, y 1, y 2, y 3, eq_ix4 y⟩
  show k0_pay1 (F := Ideal) (k0_pay2 (iblk m c 4 t)) (k0_pay3 (iblk m c 0 t) (iblk m c 1 t) (iblk m c 2 t) (iblk m c 3 t)) (ix4 u r i ch)
    = GV m c (((cfg0.win 5).blk t).view.emb (ix4 u r i ch))
  refine (tile_eq (V m c main_arg0) (V m c main_arg1) (V m c main_arg2) (V m c main_arg3)
    (iblk m c 0 t) (iblk m c 1 t) (iblk m c 2 t) (iblk m c 3 t) (iblk m c 4 t)
    ⟨win0_5.index t (0 : Fin 4), l0⟩ ⟨win0_5.index t (1 : Fin 4), l1⟩
    (fun r w c' => blk0_apply m c t _ _ rfl rfl r w c') (fun a d => blk1_apply m c t a d) (fun a d => blk2_apply m c t a d)
    (fun a d => blk3_apply m c t a d) (fun d c' => blk4_apply m c t d c') u r i ch).trans ?_
  refine congrArg (GV m c) (funext fun a => Fin.ext ?_)
  have hu : u.val = 0 := by omega
  match a with
  | ⟨0, _⟩ => show win0_5.index t (0 : Fin 4) = win0_5.index t (0 : Fin 4) * 1 + 1 * u.val; omega
  | ⟨1, _⟩ => show win0_5.index t (1 : Fin 4) * 16 + r.val = win0_5.index t (1 : Fin 4) * 16 + 1 * r.val; omega
  | ⟨2, _⟩ => show i.val = win0_5.index t (2 : Fin 4) * 128 + 1 * i.val; omega
  | ⟨3, _⟩ => show ch.val = win0_5.index t (3 : Fin 4) * 256 + 1 * ch.val; omega

/-- An index of the result is in point `t`'s block iff each coordinate is in the block's range on its axis. -/
theorem mem_blk (t : Fin cfg0.N) (i : S8x128x128x256.Idx) :
    i ∈ ((cfg0.win 5).blk t).view.set ↔ ∀ a : Fin 4, win0_5.index t a * S1x16x128x256.size a ≤ (i a).val
      ∧ (i a).val < win0_5.index t a * S1x16x128x256.size a + S1x16x128x256.size a := by
  show i ∈ ((View.whole main_v1).slice (win0_5.rect t)).set ↔ _
  rw [View.set_slice_whole, Rect.mem_set_unit]
  exact Iff.rfl

/-- The 64 blocks cover the result: index (b, h, ·, ·) lies in the block of the point with block index (b, h / 16). -/
theorem cover (i : S8x128x128x256.Idx) :
    ∃ t : Fin cfg0.N, (cfg0.win 5).flush t = true ∧ i ∈ ((cfg0.win 5).blk t).view.set := by
  have h0 : (i 0).val < 8 := (i 0).isLt
  have h1 : (i 1).val < 128 := (i 1).isLt
  have h2 : (i 2).val < 128 := (i 2).isLt
  have h3 : (i 3).val < 256 := (i 3).isLt
  obtain ⟨t, ht⟩ := idx_onto ⟨(i 0).val, h0⟩ ⟨(i 1).val / 16, by omega⟩
  have q0 : win0_5.index t (0 : Fin 4) = (i 0).val := congrFun ht 0
  have q1 : win0_5.index t (1 : Fin 4) = (i 1).val / 16 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 128 ≤ (i 2).val ∧ (i 2).val < win0_5.index t (2 : Fin 4) * 128 + 128; omega
  | ⟨3, _⟩ => show win0_5.index t (3 : Fin 4) * 256 ≤ (i 3).val ∧ (i 3).val < win0_5.index t (3 : Fin 4) * 256 + 256; omega

/-- So the result array ends as the whole-array function of the arguments as launched. -/
theorem final (c : Dev nD) :
    (dats m 0 c).arrAt 5 cfg0.N
      = attnArray (m ((c : Thread nD τ).loc main_arg0)) (m ((c : Thread nD τ).loc main_arg1))
          (m ((c : Thread nD τ).loc main_arg2)) (m ((c : Thread nD τ).loc main_arg3)) := by
  rw [(dats m 0 c).arrAt_eq_of_cover 5 (GV m c) (fun t _ => flushed_eq m c t) cover]
  show attnArray (V m c main_arg0) (V m c main_arg1) (V m c main_arg2) (V m c main_arg3) = _
  rw [V_main_arg0, V_main_arg1, V_main_arg2, V_main_arg3]

/-- The kernel's run, read: the result at the whole-array function of the arguments, the arguments unchanged. -/
theorem run : θ_run defs (onTc (τ := τ) (main (F := Ideal))) ⟨m, fun _ => 0, ρ⟩ fun r => ∀ c : Dev nD,
      r.2.mem ((c : Thread nD τ).loc main_v1)
        = attnArray (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Axial.Whole

end
-- ==== Proof.lean ====
/-
  Axial attention along the width of an image, as a fused kernel against its plain reference.

  The input is an [8, 128, 128, 256] array: 8 batch entries, 128 image rows, 128 tokens per row, 256 channels; there are
  three 256 × 256 weight matrices. Each image row is treated alone: its tokens are projected to queries, keys and
  values, every query is scored against every key of the same row, the scores of a query become weights by a softmax,
  the values are averaged with those weights, and the value weights, transposed, map the result back to 256 channels
  (`Cert.Axial.attnRow`, `Cert.Axial.attnArray`). The kernel does this sixteen image rows at a time over an 8 × 8 grid,
  rounding to a sixteen-bit format before each matrix product; the reference does it on the whole array with plain
  contractions. On the extended reals the roundings are identities, a matrix product into zero and a contraction are
  the same finite sum, and both programs take the row maximum from −∞ and the row sum from zero, so both end holding
  the same function of the arguments, entry by entry. No law that needs the inputs finite is used: the two sides are the
  same sums over the same index sets, and the precondition is never opened.

  The kernel's idealization rewrote no operation, so there is nothing to preserve; the three programs' runs terminate
  with their arguments unchanged.
-/
import proofs.«159512_j25984552141241_1_alg».proof.Defs
import proofs.«159512_j25984552141241_1_alg».proof.Proof.Gen.Kernel
import proofs.«159512_j25984552141241_1_alg».proof.Proof.Gen.Kernel.Skeleton
import proofs.«159512_j25984552141241_1_alg».proof.Proof.Gen.Kernel.Launch
import proofs.«159512_j25984552141241_1_alg».proof.Proof.Gen.Kernel.Points
import proofs.«159512_j25984552141241_1_alg».proof.Proof.Gen.Kernel.Frame
import proofs.«159512_j25984552141241_1_alg».proof.Proof.Gen.KernelIdeal
import proofs.«159512_j25984552141241_1_alg».proof.Proof.Gen.KernelIdeal.Skeleton
import proofs.«159512_j25984552141241_1_alg».proof.Proof.Gen.KernelIdeal.Launch
import proofs.«159512_j25984552141241_1_alg».proof.Proof.Gen.KernelIdeal.Points
import proofs.«159512_j25984552141241_1_alg».proof.Proof.Gen.KernelIdeal.Frame
import proofs.«159512_j25984552141241_1_alg».proof.Proof.Gen.ReferenceIdeal
import proofs.«159512_j25984552141241_1_alg».proof.Proof.Gen.Pre_finite_inputs
import proofs.«159512_j25984552141241_1_alg».proof.Proof.Gen.KernelIdeal.Value
import proofs.«159512_j25984552141241_1_alg».proof.Proof.Gen.ReferenceIdeal.Run
import proofs.«159512_j25984552141241_1_alg».proof.Proof.Gen.ReferenceIdeal.Read
import proofs.«159512_j25984552141241_1_alg».proof.Proof.RefRow
import proofs.«159512_j25984552141241_1_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs to the end with its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the four arguments, the kernel's result array and the reference's result both end as
    `Cert.Axial.attnArray` of the arguments: the kernel tile by tile over its grid, the reference stage by stage on the
    whole array. -/
theorem algebraic : Cert.algebraic_KernelIdeal_ReferenceIdeal := by
  intro m ρ m' ρ' _ hagree
  refine ⟨fun c => Cert.Axial.attnArray (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.Axial.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Axial.Ref.result, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
